-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S20x2048 : Shape := ⟨2, ![20, 2048]⟩
abbrev S20 : Shape := ⟨1, ![20]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel
  bcast_S_S20x2048 : S_.BroadcastsInDim S20x2048 (![] : Fin 0 → Fin S20x2048.rank)
  reducesTo_S20x2048_S_d0_1 : S20x2048.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg4 : FVec F S20 .f32) (main_v13 : IVec S_ 1) (main_v16 : IVec S20x2048 1) : IVec S_ 1 :=
  let main_c_5 : IVec S_ 1 := constantI S_ 1 1#1
  let main_v17 : IVec S_ 1 := (fun x v => Host.reduce IntOp.andi x v reducesTo_S20x2048_S_d0_1 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : FVec F S131072x2048 .f32) (main_arg1 : FVec F S20x2048 .f32) (main_arg2 : FVec F S20 .f32) (main_arg3 : FVec F S20x2048 .f32) (main_arg4 : FVec F S20 .f32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  let main_v4 : FVec F S20x2048 .f32 := Host.absf main_arg1
  let main_cst_0 : FVec F S_ .f32 := constant S_ .f32 0x7F800000#32
  let main_v5 : FVec F S20x2048 .f32 := broadcastInDim S20x2048 ![] bcast_S_S20x2048 main_cst_0
  let main_v6 : IVec S20x2048 1 := cmpf .olt main_v4 main_v5
  let main_c_1 : IVec S_ 1 := constantI S_ 1 1#1
  let main_v7 : IVec S_ 1 := (fun x v => Host.reduce IntOp.andi x v reducesTo_S20x2048_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x2048 .f32 := Host.absf main_arg3
  let main_cst_4 : FVec F S_ .f32 := constant S_ .f32 0x7F800000#32
  let main_v15 : FVec F S20x2048 .f32 := broadcastInDim S20x2048 ![] bcast_S_S20x2048 main_cst_4
  let main_v16 : IVec S20x2048 1 := cmpf .olt main_v14 main_v15
  fn_part1 (F := F) main_arg4 main_v13 main_v16
-- ==== Kernel.lean ====
abbrev S131072x2048 : Shape := ⟨2, ![131072, 2048]⟩
abbrev S20x2048 : Shape := ⟨2, ![20, 2048]⟩
abbrev S20 : Shape := ⟨1, ![20]⟩
abbrev S1x20 : Shape := ⟨2, ![1, 20]⟩
abbrev S131072x20 : Shape := ⟨2, ![131072, 20]⟩
abbrev S1024x2048 : Shape := ⟨2, ![1024, 2048]⟩
abbrev S1024x20 : Shape := ⟨2, ![1024, 20]⟩
abbrev S2048x20 : Shape := ⟨2, ![2048, 20]⟩
abbrev S_ : Shape := ⟨0, ![]⟩
abbrev S131072x80 : Shape := ⟨2, ![131072, 80]⟩

abbrev nBuf : Space → Nat
  | .hbm => 11
  | .vmem => 10
  | .smem => 0
  | _ => 0

abbrev bufTy : (tb : Table) → Fin (tcTables nBuf tb) → BufTy
  | .hbm, ⟨0, _⟩ => ⟨S131072x2048, .f32⟩
  | .hbm, ⟨1, _⟩ => ⟨S20x2048, .f32⟩
  | .hbm, ⟨2, _⟩ => ⟨S20, .f32⟩
  | .hbm, ⟨3, _⟩ => ⟨S20x2048, .f32⟩
  | .hbm, ⟨4, _⟩ => ⟨S20, .f32⟩
  | .hbm, ⟨5, _⟩ => ⟨S1x20, .f32⟩
  | .hbm, ⟨6, _⟩ => ⟨S1x20, .f32⟩
  | .hbm, ⟨7, _⟩ => ⟨S131072x20, .f32⟩
  | .hbm, ⟨8, _⟩ => ⟨S131072x20, .f32⟩
  | .hbm, ⟨9, _⟩ => ⟨S_, .f32⟩
  | .hbm, ⟨10, _⟩ => ⟨S131072x80, .f32⟩
  | .local _ .vmem, ⟨0, _⟩ => ⟨S1024x2048, .f32⟩
  | .local _ .vmem, ⟨1, _⟩ => ⟨S1024x2048, .f32⟩
  | .local _ .vmem, ⟨2, _⟩ => ⟨S20x2048, .f32⟩
  | .local _ .vmem, ⟨3, _⟩ => ⟨S1x20, .f32⟩
  | .local _ .vmem, ⟨4, _⟩ => ⟨S20x2048, .f32⟩
  | .local _ .vmem, ⟨5, _⟩ => ⟨S1x20, .f32⟩
  | .local _ .vmem, ⟨6, _⟩ => ⟨S1024x20, .f32⟩
  | .local _ .vmem, ⟨7, _⟩ => ⟨S1024x20, .f32⟩
  | .local _ .vmem, ⟨8, _⟩ => ⟨S1024x20, .f32⟩
  | .local _ .vmem, ⟨9, _⟩ => ⟨S1024x20, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S20_S1x20 : S20.ShapeCasts S1x20
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S20x2048_S20x2048_0_0 : ∀ a, (![0, 0] : Fin 2 → Nat) a + S20x2048.size a ≤ S20x2048.size a
  h_S20x2048 : 0 < S20x2048.numel
  transposes_S20x2048_p1_0_S2048x20 : S20x2048.Transposes [1, 0] S2048x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S1024x20 : S1x20.Broadcasts S1024x20
  inb_S1024x20_S1024x20_0_0 : ∀ a, (![0, 0] : Fin 2 → Nat) a + S1024x20.size a ≤ S1024x20.size a
  h_S1024x20 : 0 < S1024x20.numel
  bcast_S_S131072x80 : S_.BroadcastsInDim S131072x80 (![] : Fin 0 → Fin S131072x80.rank)
  dot_S1024x2048_S2048x20_S1024x20_1_0_0_1_n_n_wf : DotDims.WF S1024x2048 S2048x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S131072x2048.size a
  hwx0_0 : ∀ i : grid0.Coords, EltTy.bits .f32 = 32 ∨ (Rect.block (s := S131072x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x2048.size a ≤ S20x2048.size a
  hwx0_1 : ∀ i : grid0.Coords, EltTy.bits .f32 = 32 ∨ (Rect.block (s := S20x2048) S20x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x2048.size a ≤ S20x2048.size a
  hwx0_3 : ∀ i : grid0.Coords, EltTy.bits .f32 = 32 ∨ (Rect.block (s := S20x2048) S20x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x20.size a ≤ S131072x20.size a
  hwx0_5 : ∀ i : grid0.Coords, EltTy.bits .f32 = 32 ∨ (Rect.block (s := S131072x20) S1024x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x20.size a ≤ S131072x20.size a
  hwx0_6 : ∀ i : grid0.Coords, EltTy.bits .f32 = 32 ∨ (Rect.block (s := S131072x20) S1024x20.size (cc0_transform_6 i) (hinb0_6 i)).WholeWords (EltTy.packing .f32)

variable [Facts₀]

def dot_S1024x2048_S2048x20_S1024x20_1_0_0_1_n_n : DotDims S1024x2048 S2048x20 S1024x20 where
  lhsContracting := [1]
  rhsContracting := [0]
  lhsNonContracting := [0]
  rhsNonContracting := [1]
  lhsBatch := []
  rhsBatch := []
  wf := dot_S1024x2048_S2048x20_S1024x20_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1024x20.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1024x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S20x2048 : Shape := ⟨2, ![20, 2048]⟩
abbrev S20 : Shape := ⟨1, ![20]⟩
abbrev S131072x20 : Shape := ⟨2, ![131072, 20]⟩
abbrev S1x20 : Shape := ⟨2, ![1, 20]⟩
abbrev S_ : Shape := ⟨0, ![]⟩
abbrev S131072x80 : Shape := ⟨2, ![131072, 80]⟩

abbrev nBuf : Space → Nat
  | .hbm => 15
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S20x2048, .f32⟩
  | .hbm, ⟨2, _⟩ => ⟨S20, .f32⟩
  | .hbm, ⟨3, _⟩ => ⟨S20x2048, .f32⟩
  | .hbm, ⟨4, _⟩ => ⟨S20, .f32⟩
  | .hbm, ⟨5, _⟩ => ⟨S131072x20, .f32⟩
  | .hbm, ⟨6, _⟩ => ⟨S1x20, .f32⟩
  | .hbm, ⟨7, _⟩ => ⟨S131072x20, .f32⟩
  | .hbm, ⟨8, _⟩ => ⟨S131072x20, .f32⟩
  | .hbm, ⟨9, _⟩ => ⟨S131072x20, .f32⟩
  | .hbm, ⟨10, _⟩ => ⟨S1x20, .f32⟩
  | .hbm, ⟨11, _⟩ => ⟨S131072x20, .f32⟩
  | .hbm, ⟨12, _⟩ => ⟨S131072x20, .f32⟩
  | .hbm, ⟨13, _⟩ => ⟨S_, .f32⟩
  | .hbm, ⟨14, _⟩ => ⟨S131072x80, .f32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S131072x20_0_1 : S1x20.BroadcastsInDim S131072x20 (![0, 1] : Fin 2 → Fin S131072x20.rank)
  bcast_S_S131072x80 : S_.BroadcastsInDim S131072x80 (![] : Fin 0 → Fin S131072x80.rank)
  dot_S131072x2048_S20x2048_S131072x20_1_1_0_0_n_n_wf : DotDims.WF S131072x2048 S20x2048 S131072x20 [1] [1] [0] [0] [] []

variable [Facts₀]

def dot_S131072x2048_S20x2048_S131072x20_1_1_0_0_n_n : DotDims S131072x2048 S20x2048 S131072x20 where
  lhsContracting := [1]
  rhsContracting := [1]
  lhsNonContracting := [0]
  rhsNonContracting := [0]
  lhsBatch := []
  rhsBatch := []
  wf := dot_S131072x2048_S20x2048_S131072x20_1_1_0_0_n_n_wf

class Facts : Prop extends Facts₀ where

variable [Facts]
-- ==== Proof.HeadSpec.lean ====
/-
  One linear head of the detection layer, as a function on the extended reals.

  For features `x : [131072, 2048]`, weights `w : [20, 2048]` and a bias of twenty numbers, the head's entry at
  proposal `n` and class `k` is the inner product of row `n` of `x` with row `k` of `w`, plus the bias at `k`:
  `(x · wᵀ + b)[n, k] = Σ_d x[n, d] · w[k, d] + b[k]`. Both programs compute exactly this sum over the 2048 feature
  coordinates, in the same order of the coordinate `d`, so no law of the extended reals beyond rewriting the
  indices is needed and nothing here asks the inputs to be finite.

  The bias reaches the kernel laid out as a one-row matrix `[1, 20]` (a reshape of the vector); `headRow` is the head
  over that layout and `headRow_shapeCast` says the reshape changes nothing.
-/
import Idealize.ShloMosaic.PureOps.Ideal
import Idealize.ShloMosaic.Lib.ValueIdx
import Idealize.ShloMosaic.Lib.ValueLayout

noncomputable section

open scoped BigOperators

namespace Cert.Heads

open Idealize.ShloMosaic Idealize.ShloMosaic.ValueIdx

/-- Row `n` of the features against row `k` of the weights: the sum over the 2048 feature coordinates of the
    products. -/
def rowDot (x : (⟨2, ![131072, 2048]⟩ : Shape).Idx → EReal) (w : (⟨2, ![20, 2048]⟩ : Shape).Idx → EReal)
    (n : Fin 131072) (k : Fin 20) : EReal :=
  ∑ d : Fin 2048, x (ix2 n d) * w (ix2 k d)

/-- One linear head with the bias a vector of twenty numbers: `x · wᵀ + b`, entry by entry. -/
def head (x : (⟨2, ![131072, 2048]⟩ : Shape).Idx → EReal) (w : (⟨2, ![20, 2048]⟩ : Shape).Idx → EReal)
    (b : (⟨1, ![20]⟩ : Shape).Idx → EReal) : (⟨2, ![131072, 20]⟩ : Shape).Idx → EReal :=
  fun i => rowDot x w (i 0) (i 1) + b (ix1 (i 1))

/-- The same head with the bias laid out as a one-row matrix. -/
def headRow (x : (⟨2, ![131072, 2048]⟩ : Shape).Idx → EReal) (w : (⟨2, ![20, 2048]⟩ : Shape).Idx → EReal)
    (b : (⟨2, ![1, 20]⟩ : Shape).Idx → EReal) : (⟨2, ![131072, 20]⟩ : Shape).Idx → EReal :=
  fun i => rowDot x w (i 0) (i 1) + b (ix2 (0 : Fin 1) (i 1))

/-- Reshaping the bias vector to a one-row matrix does not change the head: entry `(0, k)` of the row is entry `k`
    of the vector. -/
theorem headRow_shapeCast (x : (⟨2, ![131072, 2048]⟩ : Shape).Idx → EReal) (w : (⟨2, ![20, 2048]⟩ : Shape).Idx → EReal)
    (b : (⟨1, ![20]⟩ : Shape).Idx → EReal) (h : (⟨1, ![20]⟩ : Shape).ShapeCasts ⟨2, ![1, 20]⟩) :
    headRow x w (shapeCast ⟨2, ![1, 20]⟩ b h) = head x w b := by
  funext i
  exact congrArg (fun z => rowDot x w (i 0) (i 1) + z) (shapeCast_a_1a_apply b h (0 : Fin 1) (i 1))

end Cert.Heads

end
-- ==== Proof.HeadBlock.lean ====
/-
  What the kernel body computes for one block of 1024 proposals, entry by entry.

  The body loads a block `x0 : [1024, 2048]` of the features, the whole weight matrix `w : [20, 2048]` and the bias row
  `b : [1, 20]`, transposes the weights to `[2048, 20]`, multiplies the block by them on the matrix unit into a zero
  accumulator, and adds the bias row broadcast over the 1024 rows. On the extended reals the change of format to
  bf16 is the identity and the matrix product into zero is the plain sum over the contracted coordinate, so entry
  `(p, q)` of the result is `Σ_d x0[p, d] · w[q, d] + b[0, q]`.
-/
import proofs.«101287_j40389872451670_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HeadBlock

open Cert.KernelIdeal Cert.KernelIdeal.Gen Idealize.ShloMosaic Idealize.ShloMosaic.ValueIdx

/-- The matrix product's dimension numbers: the block's axis 1 is contracted with the transposed weights' axis 0. -/
abbrev dims : DotDims S1024x2048 S2048x20 S1024x20 := dot_S1024x2048_S2048x20_S1024x20_1_0_0_1_n_n

/-- The left operand's row coordinate is the result's row. -/
theorem lhs_row (j : S1024x20.Idx) (k : dims.contr.Idx) : (dims.lhsIdx j k 0).val = (j 0).val := by
  unfold DotDims.lhsIdx
  rw [dif_neg (show ¬(0 : Fin S1024x2048.rank) ∈ dims.lhsBatch by decide),
    dif_pos (show (0 : Fin S1024x2048.rank) ∈ dims.lhsNonContracting by decide)]
  rfl

/-- The left operand's column coordinate is the contracted coordinate. -/
theorem lhs_col (j : S1024x20.Idx) (k : dims.contr.Idx) : (dims.lhsIdx j k 1).val = (k ⟨0, by decide⟩).val :=
  dims.lhsIdx_val_of_single rfl j k

/-- The right operand's row coordinate is the contracted coordinate. -/
theorem rhs_row (j : S1024x20.Idx) (k : dims.contr.Idx) : (dims.rhsIdx j k 0).val = (k ⟨0, by decide⟩).val :=
  dims.rhsIdx_val_of_single rfl j k

/-- The right operand's column coordinate is the result's column. -/
theorem rhs_col (j : S1024x20.Idx) (k : dims.contr.Idx) : (dims.rhsIdx j k 1).val = (j 1).val := by
  unfold DotDims.rhsIdx
  rw [dif_neg (show ¬(1 : Fin S2048x20.rank) ∈ dims.rhsBatch by decide),
    dif_pos (show (1 : Fin S2048x20.rank) ∈ dims.rhsNonContracting by decide)]
  rfl

/-- The block times the transposed weights, into a zero accumulator, at row `p` and class `q`: the inner product of
    the block's row `p` with the weights' row `q`. -/
theorem matmul_transpose_apply (x0 : FVec Ideal S1024x2048 .bf16) (w : FVec Ideal S20x2048 .bf16) (p : Fin 1024) (q : Fin 20) :
    matmul dims none x0 (transpose S2048x20 [1, 0] w transposes_S20x2048_p1_0_S2048x20)
        (constant (F := Ideal) S1024x20 .f32 0x00000000#32) (ix2 p q)
      = ∑ d : Fin 2048, x0 (ix2 p d) * w (ix2 q d) := by
  simp only [matmul]
  rw [Ideal.matmul_constant_zero_apply, ← Equiv.sum_comp (contrEquiv1 dims 2048 rfl rfl).symm]
  refine Finset.sum_congr rfl fun d _ => ?_
  have hd := contrEquiv1_symm_val dims 2048 rfl rfl d
  have el : dims.lhsIdx (ix2 p q) ((contrEquiv1 dims 2048 rfl rfl).symm d) = ix2 p d := funext fun a => Fin.ext (by
    match a with
    | ⟨0, _⟩ => exact lhs_row _ _
    | ⟨1, _⟩ => exact (lhs_col _ _).trans hd)
  have er : dims.rhsIdx (ix2 p q) ((contrEquiv1 dims 2048 rfl rfl).symm d) = ix2 d q := funext fun a => Fin.ext (by
    match a with
    | ⟨0, _⟩ => exact (rhs_row _ _).trans hd
    | ⟨1, _⟩ => exact rhs_col _ _)
  rw [el, er, transpose_ix2_apply]

/-- The body's stored value for one head, at row `p` and class `q` of the block. -/
theorem pay2_apply (x0 : Vec Ideal S1024x2048 .f32) (w : Vec Ideal S20x2048 .f32) (b : Vec Ideal S1x20 .f32)
    (p : Fin 1024) (q : Fin 20) :
    k0_pay2 x0 w b (ix2 p q) = (∑ d : Fin 2048, x0 (ix2 p d) * w (ix2 q d)) + b (ix2 (0 : Fin 1) q) := by
  unfold k0_pay2 k0_pay1
  rw [addf_apply]
  refine congrArg₂ (· + ·) ?_ ?_
  · exact matmul_transpose_apply _ _ p q
  · rw [broadcastTo_1b_ab_apply, shapeCast_self]

/-- The second head's stored value is the same function of its own weights and bias. -/
theorem pay3_apply (x0 : Vec Ideal S1024x2048 .f32) (w : Vec Ideal S20x2048 .f32) (b : Vec Ideal S1x20 .f32)
    (p : Fin 1024) (q : Fin 20) :
    k0_pay3 x0 w b (ix2 p q) = (∑ d : Fin 2048, x0 (ix2 p d) * w (ix2 q d)) + b (ix2 (0 : Fin 1) q) := by
  unfold k0_pay3 k0_pay1
  rw [addf_apply]
  refine congrArg₂ (· + ·) ?_ ?_
  · exact matmul_transpose_apply _ _ p q
  · rw [broadcastTo_1b_ab_apply, shapeCast_self]

end Cert.KernelIdeal.HeadBlock

end
-- ==== Proof.HeadValue.lean ====
/-
  The kernel's two score arrays after the run, as whole-array functions of the arguments.

  The grid has 128 points. Point `t` fetches rows `1024·t … 1024·t + 1023` of the features, the whole of each weight
  matrix and of each bias row, and writes back rows `1024·t … 1024·t + 1023` of each score array. So what point `t`
  writes is block `t` of ONE function of the arrays the region finds — the linear head of `HeadSpec` over the features,
  the weights and the bias row —, the 128 blocks tile the 131072 rows (row `r` lies in block `r / 1024`), and each
  score array ends as that function. The bias rows are reshapes of the bias vectors made before the region, which
  the head does not see; and the third result is written after the region, a zero constant broadcast, whatever the
  region did.
-/
import proofs.«101287_j40389872451670_2_alg».proof.Proof.Gen.KernelIdeal.Frame
import proofs.«101287_j40389872451670_2_alg».proof.Proof.HeadSpec
import proofs.«101287_j40389872451670_2_alg».proof.Proof.HeadBlock
import Idealize.ShloMosaic.Lib.Pipeline.Value
import Idealize.ShloMosaic.Lib.StableHlo.Run

noncomputable section

open scoped BigOperators

namespace Cert.KernelIdeal.HeadValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One block of a head -/

/-- A block of 1024 rows starting at row `1024·r`, with the whole weights and bias row: the body's stored value at
    `(p, q)` is the head at row `1024·r + p` and class `q`. -/
theorem pay2_block (X : S131072x2048.Idx → EReal) (W : S20x2048.Idx → EReal) (B : S1x20.Idx → EReal)
    (x0 : Vec Ideal S1024x2048 .f32) (w : Vec Ideal S20x2048 .f32) (b : Vec Ideal S1x20 .f32) (r : ℕ) (hr : r < 128)
    (hx : ∀ (p : Fin 1024) (d : Fin 2048), x0 (ix2 p d) = X (ix2 (⟨r * 1024 + p.val, by omega⟩ : Fin 131072) d))
    (hw : ∀ (q : Fin 20) (d : Fin 2048), w (ix2 q d) = W (ix2 q d))
    (hb : ∀ q : Fin 20, b (ix2 (0 : Fin 1) q) = B (ix2 (0 : Fin 1) q)) (p : Fin 1024) (q : Fin 20) :
    k0_pay2 x0 w b (ix2 p q) = Cert.Heads.headRow X W B (ix2 (⟨r * 1024 + p.val, by omega⟩ : Fin 131072) q) := by
  rw [HeadBlock.pay2_apply]
  unfold Cert.Heads.headRow Cert.Heads.rowDot
  simp only [hx, hw, hb]

/-- The same for the second head's stored value. -/
theorem pay3_block (X : S131072x2048.Idx → EReal) (W : S20x2048.Idx → EReal) (B : S1x20.Idx → EReal)
    (x0 : Vec Ideal S1024x2048 .f32) (w : Vec Ideal S20x2048 .f32) (b : Vec Ideal S1x20 .f32) (r : ℕ) (hr : r < 128)
    (hx : ∀ (p : Fin 1024) (d : Fin 2048), x0 (ix2 p d) = X (ix2 (⟨r * 1024 + p.val, by omega⟩ : Fin 131072) d))
    (hw : ∀ (q : Fin 20) (d : Fin 2048), w (ix2 q d) = W (ix2 q d))
    (hb : ∀ q : Fin 20, b (ix2 (0 : Fin 1) q) = B (ix2 (0 : Fin 1) q)) (p : Fin 1024) (q : Fin 20) :
    k0_pay3 x0 w b (ix2 p q) = Cert.Heads.headRow X W B (ix2 (⟨r * 1024 + p.val, by omega⟩ : Fin 131072) q) := by
  rw [HeadBlock.pay3_apply]
  unfold Cert.Heads.headRow Cert.Heads.rowDot
  simp only [hx, hw, hb]

/-! ## Where each window's block sits -/

theorem zero_offsets : (![0, 0] : Fin 2 → Nat) = fun _ => 0 := funext fun a => by fin_cases a <;> rfl

/-- The grid has 128 points. -/
theorem point_lt (t : Fin cfg0.N) : t.val < 128 := by
  have h := t.isLt
  have hN : cfg0.N = 128 := N_0
  omega

/-- The printed index maps, decided over the grid: the features' window and the two results' windows are at block
    row `t`, block column 0; the weights' and the bias rows' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The features' block at point `t` is rows `1024·t …` of the features. -/
theorem read_features (c : Dev nD) (t : Fin cfg0.N) (p : Fin 1024) (d : Fin 2048) :
    iblk m c 0 t (ix2 p d)
      = V m c main_arg0 (ix2 (⟨t.val * 1024 + p.val, by have := point_lt t; omega⟩ : Fin 131072) d) := by
  obtain ⟨e0, e1, -⟩ := idx_facts t
  show V m c main_arg0 (((cfg0.win 0).blk t).view.emb (ix2 p d)) = V m c main_arg0 _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * d.val = d.val; omega

/-- The first head's weights' block is the whole matrix. -/
theorem read_cls_w (c : Dev nD) (t : Fin cfg0.N) (q : Fin 20) (d : Fin 2048) :
    iblk m c 1 t (ix2 q d) = V m c main_arg1 (ix2 q d) := by
  obtain ⟨-, -, e0, e1, -⟩ := idx_facts t
  show V m c main_arg1 (((cfg0.win 1).blk t).view.emb (ix2 q d)) = V m c main_arg1 _
  refine congrArg _ (funext fun a => Fin.ext ?_)
  match a with
  | ⟨0, _⟩ => show win0_1.index t (0 : Fin 2) * 20 + 1 * q.val = q.val; omega
  | ⟨1, _⟩ => show win0_1.index t (1 : Fin 2) * 2048 + 1 * d.val = d.val; omega

/-- The first head's bias row's block is the whole row. -/
theorem read_cls_b (c : Dev nD) (t : Fin cfg0.N) (q : Fin 20) :
    iblk m c 2 t (ix2 (0 : Fin 1) q) = V m c main_v0 (ix2 (0 : Fin 1) q) := by
  obtain ⟨-, -, -, -, e0, e1, -⟩ := idx_facts t
  show V m c main_v0 (((cfg0.win 2).blk t).view.emb (ix2 (0 : Fin 1) q)) = V m c main_v0 _
  refine congrArg _ (funext fun a => Fin.ext ?_)
  match a with
  | ⟨0, _⟩ => show win0_2.index t (0 : Fin 2) * 1 + 1 * 0 = 0; omega
  | ⟨1, _⟩ => show win0_2.index t (1 : Fin 2) * 20 + 1 * q.val = q.val; omega

/-- The second head's weights' block is the whole matrix. -/
theorem read_det_w (c : Dev nD) (t : Fin cfg0.N) (q : Fin 20) (d : Fin 2048) :
    iblk m c 3 t (ix2 q d) = V m c main_arg3 (ix2 q d) := by
  obtain ⟨-, -, -, -, -, -, e0, e1, -⟩ := idx_facts t
  show V m c main_arg3 (((cfg0.win 3).blk t).view.emb (ix2 q d)) = V m c main_arg3 _
  refine congrArg _ (funext fun a => Fin.ext ?_)
  match a with
  | ⟨0, _⟩ => show win0_3.index t (0 : Fin 2) * 20 + 1 * q.val = q.val; omega
  | ⟨1, _⟩ => show win0_3.index t (1 : Fin 2) * 2048 + 1 * d.val = d.val; omega

/-- The second head's bias row's block is the whole row. -/
theorem read_det_b (c : Dev nD) (t : Fin cfg0.N) (q : Fin 20) :
    iblk m c 4 t (ix2 (0 : Fin 1) q) = V m c main_v1 (ix2 (0 : Fin 1) q) := by
  obtain ⟨-, -, -, -, -, -, -, -, e0, e1, -⟩ := idx_facts t
  show V m c main_v1 (((cfg0.win 4).blk t).view.emb (ix2 (0 : Fin 1) q)) = V m c main_v1 _
  refine congrArg _ (funext fun a => Fin.ext ?_)
  match a with
  | ⟨0, _⟩ => show win0_4.index t (0 : Fin 2) * 1 + 1 * 0 = 0; omega
  | ⟨1, _⟩ => show win0_4.index t (1 : Fin 2) * 20 + 1 * q.val = q.val; omega

/-! ## The two score arrays as the region leaves them -/

/-- The first score array: the head of the features, the first weights and the first bias row, as the region finds them. -/
def scoresAt (c : Dev nD) : S131072x20.Idx → EReal :=
  Cert.Heads.headRow (V m c main_arg0) (V m c main_arg1) (V m c main_v0)

/-- The second score array: the head of the features, the second weights and the second bias row. -/
def weightsAt (c : Dev nD) : S131072x20.Idx → EReal :=
  Cert.Heads.headRow (V m c main_arg0) (V m c main_arg3) (V m c main_v1)

/-- What point `t` writes back to the first score array is block `t` of `scoresAt`. -/
theorem flushed_scores (c : Dev nD) (t : Fin cfg0.N) :
    (dats m 0 c).flushed 5 t = ((cfg0.win 5).blk t).view.read (Elt Ideal) (scoresAt m c) := by
  show (cfg0.win 5).cut (grid0.coords t) ((dats m 0 c).after 5 t) = _
  rw [after0_5]
  unfold out0_5
  rw [View.canon_unit_zero zero_offsets]
  simp only [View.ld_unit_zero (S := S1024x2048) zero_offsets, View.ld_unit_zero (S := S20x2048) zero_offsets,
    View.ld_unit_zero (S := S1x20) zero_offsets]
  obtain ⟨-, -, -, -, -, -, -, -, -, -, e0, e1, -⟩ := idx_facts t
  funext j
  obtain ⟨p, q, rfl⟩ : ∃ (p : Fin 1024) (q : Fin 20), j = ix2 p q := ⟨j 0, j 1, eq_ix2 j⟩
  refine (pay2_block (V m c main_arg0) (V m c main_arg1) (V m c main_v0) (iblk m c 0 t) (iblk m c 1 t) (iblk m c 2 t)
    t.val (point_lt t) (read_features m c t) (read_cls_w m c t) (read_cls_b m c t) p q).trans ?_
  show scoresAt m c _ = scoresAt m c (((cfg0.win 5).blk t).view.emb (ix2 p q))
  refine congrArg _ (funext fun a => Fin.ext ?_)
  match a with
  | ⟨0, _⟩ => show t.val * 1024 + p.val = win0_5.index t (0 : Fin 2) * 1024 + 1 * p.val; omega
  | ⟨1, _⟩ => show q.val = win0_5.index t (1 : Fin 2) * 20 + 1 * q.val; omega

/-- What point `t` writes back to the second score array is block `t` of `weightsAt`. -/
theorem flushed_weights (c : Dev nD) (t : Fin cfg0.N) :
    (dats m 0 c).flushed 6 t = ((cfg0.win 6).blk t).view.read (Elt Ideal) (weightsAt m c) := by
  show (cfg0.win 6).cut (grid0.coords t) ((dats m 0 c).after 6 t) = _
  rw [after0_6]
  unfold out0_6
  rw [View.canon_unit_zero zero_offsets]
  simp only [View.ld_unit_zero (S := S1024x2048) zero_offsets, View.ld_unit_zero (S := S20x2048) zero_offsets,
    View.ld_unit_zero (S := S1x20) zero_offsets]
  obtain ⟨-, -, -, -, -, -, -, -, -, -, -, -, e0, e1⟩ := idx_facts t
  funext j
  obtain ⟨p, q, rfl⟩ : ∃ (p : Fin 1024) (q : Fin 20), j = ix2 p q := ⟨j 0, j 1, eq_ix2 j⟩
  refine (pay3_block (V m c main_arg0) (V m c main_arg3) (V m c main_v1) (iblk m c 0 t) (iblk m c 3 t) (iblk m c 4 t)
    t.val (point_lt t) (read_features m c t) (read_det_w m c t) (read_det_b m c t) p q).trans ?_
  show weightsAt m c _ = weightsAt m c (((cfg0.win 6).blk t).view.emb (ix2 p q))
  refine congrArg _ (funext fun a => Fin.ext ?_)
  match a with
  | ⟨0, _⟩ => show t.val * 1024 + p.val = win0_6.index t (0 : Fin 2) * 1024 + 1 * p.val; omega
  | ⟨1, _⟩ => show q.val = win0_6.index t (1 : Fin 2) * 20 + 1 * q.val; omega

/-! ## The blocks tile the rows -/

/-- An entry of the first score array is in point `t`'s block iff each coordinate is in the block's range. -/
theorem mem_blk_scores (t : Fin cfg0.N) (i : S131072x20.Idx) :
    i ∈ ((cfg0.win 5).blk t).view.set ↔ ∀ a : Fin 2, win0_5.index t a * S1024x20.size a ≤ (i a).val
      ∧ (i a).val < win0_5.index t a * S1024x20.size a + S1024x20.size a := by
  show i ∈ ((View.whole main_v2_0).slice (win0_5.rect t)).set ↔ _
  rw [View.set_slice_whole, Rect.mem_set_unit]
  exact Iff.rfl

/-- The same for the second score array. -/
theorem mem_blk_weights (t : Fin cfg0.N) (i : S131072x20.Idx) :
    i ∈ ((cfg0.win 6).blk t).view.set ↔ ∀ a : Fin 2, win0_6.index t a * S1024x20.size a ≤ (i a).val
      ∧ (i a).val < win0_6.index t a * S1024x20.size a + S1024x20.size a := by
  show i ∈ ((View.whole main_v2_1).slice (win0_6.rect t)).set ↔ _
  rw [View.set_slice_whole, Rect.mem_set_unit]
  exact Iff.rfl

/-- The point whose block holds row `r`: `r / 1024`. -/
def pointOf (i : S131072x20.Idx) : Fin cfg0.N :=
  ⟨(i 0).val / 1024, by
    have h : (i 0).val < 131072 := (i 0).isLt
    have hN : cfg0.N = 128 := N_0
    omega⟩

/-- Every entry of the first score array is in the block of the point `row / 1024`. -/
theorem cover_scores (i : S131072x20.Idx) :
    ∃ t : Fin cfg0.N, (cfg0.win 5).flush t = true ∧ i ∈ ((cfg0.win 5).blk t).view.set := by
  have hi0 : (i 0).val < 131072 := (i 0).isLt
  have hi1 : (i 1).val < 20 := (i 1).isLt
  obtain ⟨-, -, -, -, -, -, -, -, -, -, e0, e1, -⟩ := idx_facts (pointOf i)
  have ht : (pointOf i).val = (i 0).val / 1024 := rfl
  refine ⟨pointOf i, flush0_5 _, ?_⟩
  rw [mem_blk_scores]
  intro a
  match a with
  | ⟨0, _⟩ =>
    show win0_5.index (pointOf i) (0 : Fin 2) * 1024 ≤ (i 0).val
      ∧ (i 0).val < win0_5.index (pointOf i) (0 : Fin 2) * 1024 + 1024
    omega
  | ⟨1, _⟩ =>
    show win0_5.index (pointOf i) (1 : Fin 2) * 20 ≤ (i 1).val
      ∧ (i 1).val < win0_5.index (pointOf i) (1 : Fin 2) * 20 + 20
    omega

/-- Every entry of the second score array is in the block of the point `row / 1024`. -/
theorem cover_weights (i : S131072x20.Idx) :
    ∃ t : Fin cfg0.N, (cfg0.win 6).flush t = true ∧ i ∈ ((cfg0.win 6).blk t).view.set := by
  have hi0 : (i 0).val < 131072 := (i 0).isLt
  have hi1 : (i 1).val < 20 := (i 1).isLt
  obtain ⟨-, -, -, -, -, -, -, -, -, -, -, -, e0, e1⟩ := idx_facts (pointOf i)
  have ht : (pointOf i).val = (i 0).val / 1024 := rfl
  refine ⟨pointOf i, flush0_6 _, ?_⟩
  rw [mem_blk_weights]
  intro a
  match a with
  | ⟨0, _⟩ =>
    show win0_6.index (pointOf i) (0 : Fin 2) * 1024 ≤ (i 0).val
      ∧ (i 0).val < win0_6.index (pointOf i) (0 : Fin 2) * 1024 + 1024
    omega
  | ⟨1, _⟩ =>
    show win0_6.index (pointOf i) (1 : Fin 2) * 20 ≤ (i 1).val
      ∧ (i 1).val < win0_6.index (pointOf i) (1 : Fin 2) * 20 + 20
    omega

/-- The first score array after the region. -/
theorem final_scores (c : Dev nD) : (dats m 0 c).arrAt 5 cfg0.N = scoresAt m c :=
  (dats m 0 c).arrAt_eq_of_cover 5 (scoresAt m c) (fun t _ => flushed_scores m c t) cover_scores

/-- The second score array after the region. -/
theorem final_weights (c : Dev nD) : (dats m 0 c).arrAt 6 cfg0.N = weightsAt m c :=
  (dats m 0 c).arrAt_eq_of_cover 6 (weightsAt m c) (fun t _ => flushed_weights m c t) cover_weights

end Cert.KernelIdeal.HeadValue

end
-- ==== Proof.HeadRun.lean ====
/-
  The kernel program's run, with every result named as a function of the arguments.

  Around the region the program does four host steps. Before it, each bias vector is reshaped to a one-row matrix —
  the rows the region reads —, and the arguments are otherwise untouched, so the two score arrays the region leaves
  (`HeadValue`) are the linear heads of the ARGUMENTS. After it, a zero constant is broadcast to the third result,
  which therefore does not depend on anything the region did.
-/
import proofs.«101287_j40389872451670_2_alg».proof.Proof.HeadValue

noncomputable section

namespace Cert.KernelIdeal.HeadRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The first bias row the region finds is the first bias vector reshaped. -/
theorem cls_bias_row (c : Dev nD) :
    (V m c main_v0 : S1x20.Idx → EReal) = shapeCast S1x20 (m ((c : Thread nD τ).loc main_arg2)) shapeCasts_S20_S1x20 := by
  show StableHlo.after hostOps0 (fun b => m (c, b)) (Proc.devRef .tc main_v0) = _
  after_results
  rfl

/-- The second bias row the region finds is the second bias vector reshaped. -/
theorem det_bias_row (c : Dev nD) :
    (V m c main_v1 : S1x20.Idx → EReal) = shapeCast S1x20 (m ((c : Thread nD τ).loc main_arg4)) shapeCasts_S20_S1x20 := by
  show StableHlo.after hostOps0 (fun b => m (c, b)) (Proc.devRef .tc main_v1) = _
  after_results
  rfl

/-- The first score array is the head of the arguments `x`, `cls_w`, `cls_b`. -/
theorem scores_eq (c : Dev nD) :
    HeadValue.scoresAt m c = Cert.Heads.head (m ((c : Thread nD τ).loc main_arg0)) (m ((c : Thread nD τ).loc main_arg1))
      (m ((c : Thread nD τ).loc main_arg2)) := by
  unfold HeadValue.scoresAt
  rw [V_main_arg0, V_main_arg1, cls_bias_row, Cert.Heads.headRow_shapeCast]

/-- The second score array is the head of the arguments `x`, `det_w`, `det_b`. -/
theorem weights_eq (c : Dev nD) :
    HeadValue.weightsAt m c = Cert.Heads.head (m ((c : Thread nD τ).loc main_arg0)) (m ((c : Thread nD τ).loc main_arg3))
      (m ((c : Thread nD τ).loc main_arg4)) := by
  unfold HeadValue.weightsAt
  rw [V_main_arg0, V_main_arg3, det_bias_row, Cert.Heads.headRow_shapeCast]

/-- The third result, written after the region: the zero constant broadcast over `[131072, 80]`. -/
theorem deltas_eq (c : Dev nD) :
    Pipeline.afterTail₀ cfgs (dats m) 0 (V0 m) [hostOps1] c main_v3
      = broadcastInDim S131072x80 ![] bcast_S_S131072x80 (constant (F := Ideal) S_ .f32 0x00000000#32) := by
  unfold Pipeline.afterTail₀
  show StableHlo.after hostOps1 _ (Proc.devRef .tc main_v3) = _
  after_results

/-- Every weakly fair execution of the kernel program terminates with the two score arrays at the linear heads of the
    arguments, the third result at the broadcast zero, and the arguments unchanged. -/
theorem run : θ_run defs (onTc (τ := τ) (main (F := Ideal))) ⟨m, fun _ => 0, ρ⟩ fun r => ∀ c : Dev nD,
      r.2.mem ((c : Thread nD τ).loc main_v2_0) = Cert.Heads.head (m ((c : Thread nD τ).loc main_arg0))
        (m ((c : Thread nD τ).loc main_arg1)) (m ((c : Thread nD τ).loc main_arg2))
      ∧ r.2.mem ((c : Thread nD τ).loc main_v2_1) = Cert.Heads.head (m ((c : Thread nD τ).loc main_arg0))
        (m ((c : Thread nD τ).loc main_arg3)) (m ((c : Thread nD τ).loc main_arg4))
      ∧ r.2.mem ((c : Thread nD τ).loc main_v3)
        = broadcastInDim S131072x80 ![] bcast_S_S131072x80 (constant (F := Ideal) S_ .f32 0x00000000#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).1 5).trans ((HeadValue.final_scores m c).trans (scores_eq m c)),
      ((h c).1 6).trans ((HeadValue.final_weights m c).trans (weights_eq m c)),
      ((h c).2 main_v3 (Pipeline.mem_restRefs_of main_v3 (by decide) (by decide))).trans (deltas_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.HeadRun

end
-- ==== Proof.RefHead.lean ====
/-
  The reference's two score arrays are the linear heads of `HeadSpec`.

  The reference contracts the features with the weights over their shared second axis (`einsum "nd,kd->nk"`),
  broadcasts the bias vector first to a one-row matrix and then over all 131072 rows, and adds. Read at an entry
  `(n, k)` on the extended reals that is `Σ_d x[n, d] · w[k, d] + b[k]`: the contraction is a plain sum over the
  2048 feature coordinates and the two broadcasts read the bias at `k`.
-/
import proofs.«101287_j40389872451670_2_alg».proof.Proof.Gen.ReferenceIdeal.Read
import proofs.«101287_j40389872451670_2_alg».proof.Proof.HeadSpec

noncomputable section

open scoped BigOperators

namespace Cert.ReferenceIdeal.RefHead

open Cert.ReferenceIdeal Cert.ReferenceIdeal.Read Idealize.ShloMosaic Idealize.ShloMosaic.ValueIdx

/-- The first result, `x · cls_wᵀ + cls_b`, entry by entry. -/
theorem scores_eq (x : (⟨S131072x2048, .f32⟩ : BufTy).Contents (Elt Ideal)) (w : (⟨S20x2048, .f32⟩ : BufTy).Contents (Elt Ideal))
    (b : (⟨S20, .f32⟩ : BufTy).Contents (Elt Ideal)) :
    val_main_v3 (F := Ideal) x w b = Cert.Heads.head x w b := by
  funext i
  rw [val_main_v3_apply, val_main_v0_apply, val_main_v2_apply, val_main_v1_apply]
  have el : ∀ d : Fin 2048, lidx_main_v0 i d = ix2 (i 0) d := fun d =>
    funext fun a => by match a with | ⟨0, _⟩ => rfl | ⟨1, _⟩ => rfl
  have er : ∀ d : Fin 2048, ridx_main_v0 i d = ix2 (i 1) d := fun d =>
    funext fun a => by match a with | ⟨0, _⟩ => rfl | ⟨1, _⟩ => rfl
  have eb : idx_main_v1 (idx_main_v2 i) = ix1 (i 1) :=
    funext fun a => by match a with | ⟨0, _⟩ => rfl
  simp only [el, er, eb, Ideal.addf_def]
  rfl

/-- The second result, `x · det_wᵀ + det_b`, entry by entry. -/
theorem weights_eq (x : (⟨S131072x2048, .f32⟩ : BufTy).Contents (Elt Ideal)) (w : (⟨S20x2048, .f32⟩ : BufTy).Contents (Elt Ideal))
    (b : (⟨S20, .f32⟩ : BufTy).Contents (Elt Ideal)) :
    val_main_v7 (F := Ideal) x w b = Cert.Heads.head x w b := by
  funext i
  rw [val_main_v7_apply, val_main_v4_apply, val_main_v6_apply, val_main_v5_apply]
  have el : ∀ d : Fin 2048, lidx_main_v4 i d = ix2 (i 0) d := fun d =>
    funext fun a => by match a with | ⟨0, _⟩ => rfl | ⟨1, _⟩ => rfl
  have er : ∀ d : Fin 2048, ridx_main_v4 i d = ix2 (i 1) d := fun d =>
    funext fun a => by match a with | ⟨0, _⟩ => rfl | ⟨1, _⟩ => rfl
  have eb : idx_main_v5 (idx_main_v6 i) = ix1 (i 1) :=
    funext fun a => by match a with | ⟨0, _⟩ => rfl
  simp only [el, er, eb, Ideal.addf_def]
  rfl

end Cert.ReferenceIdeal.RefHead

end
-- ==== Proof.lean ====
/-
  Two linear heads over 131072 proposals: the kernel against its jnp reference, on the extended reals.

  Each program returns `scores = x · cls_wᵀ + cls_b`, `weights = x · det_wᵀ + det_b` (both `[131072, 20]`) and an
  all-zero `[131072, 80]` array. The kernel streams the features through a grid of 128 points, 1024 rows at a time,
  multiplying each block by the transposed weights on the matrix unit (through bf16, which on the extended reals is
  no change) and adding the bias row; the reference contracts the whole arrays at once. Entry `(n, k)` of either
  head is on both sides the same sum `Σ_d x[n, d] · w[k, d] + b[k]` over the 2048 feature coordinates in the same
  order, so the two agree on every extended-real input and the precondition is never opened. The zero array is
  the same host term in both programs.

  The modules: `HeadSpec` states the head; `HeadBlock` reads the kernel body's stored value at an entry of a block;
  `HeadValue` shows that the blocks written at the 128 points are the blocks of the head and tile the array;
  `HeadRun` reads the host steps around the region and states the kernel program's run; `RefHead` reads the
  reference's results at an entry. The three frames are the programs' runs with the results dropped, and the
  idealized kernel is the kernel's own text, so nothing is owed for `preserves`.
-/
import proofs.«101287_j40389872451670_2_alg».proof.Defs
import proofs.«101287_j40389872451670_2_alg».proof.Proof.Gen.Kernel
import proofs.«101287_j40389872451670_2_alg».proof.Proof.Gen.Kernel.Frame
import proofs.«101287_j40389872451670_2_alg».proof.Proof.Gen.KernelIdeal
import proofs.«101287_j40389872451670_2_alg».proof.Proof.Gen.KernelIdeal.Frame
import proofs.«101287_j40389872451670_2_alg».proof.Proof.Gen.ReferenceIdeal
import proofs.«101287_j40389872451670_2_alg».proof.Proof.Gen.ReferenceIdeal.Run
import proofs.«101287_j40389872451670_2_alg».proof.Proof.Gen.ReferenceIdeal.Read
import proofs.«101287_j40389872451670_2_alg».proof.Proof.Gen.Pre_finite_inputs
import proofs.«101287_j40389872451670_2_alg».proof.Proof.HeadRun
import proofs.«101287_j40389872451670_2_alg».proof.Proof.RefHead

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the five arguments both programs end with the two heads of those arguments and the
    zero array: the kernel's run (`HeadRun.run`) beside the reference's, whose two sums are the same heads
    (`RefHead`) of arguments that agree. -/
theorem algebraic : Cert.algebraic_KernelIdeal_ReferenceIdeal := by
  intro m ρ m' ρ' _ hagree
  refine ⟨_, _, _, Cert.KernelIdeal.HeadRun.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v3_eq, Cert.ReferenceIdeal.RefHead.scores_eq,
      (hagree c).1, (hagree c).2.1, (hagree c).2.2.1]
  · rw [(h c).2.1, Cert.ReferenceIdeal.Read.val_main_v7_eq, Cert.ReferenceIdeal.RefHead.weights_eq,
      (hagree c).1, (hagree c).2.2.2.1, (hagree c).2.2.2.2]
  · exact (h c).2.2.1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
